-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S1x2048 : Shape := ⟨2, ![1, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S2048x8192 .f32) (main_arg3 : FVec F S1x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S1x2048 : Shape := ⟨2, ![1, 2048]⟩
abbrev S2048x1 : Shape := ⟨2, ![2048, 1]⟩
abbrev S8192x1 : Shape := ⟨2, ![8192, 1]⟩
abbrev S_ : Shape := ⟨0, ![]⟩
abbrev S512x2048 : Shape := ⟨2, ![512, 2048]⟩
abbrev S2048x512 : Shape := ⟨2, ![2048, 512]⟩
abbrev S512x1 : Shape := ⟨2, ![512, 1]⟩
abbrev S512 : Shape := ⟨1, ![512]⟩
abbrev S512x512 : Shape := ⟨2, ![512, 512]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S2048x8192, .bf16⟩
  | .hbm, ⟨7, _⟩ => ⟨S2048x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .i1⟩
  | .hbm, ⟨12, _⟩ => ⟨S8192x1, .f32⟩
  | .hbm, ⟨13, _⟩ => ⟨S8192x2048, .f32⟩
  | .hbm, ⟨14, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S512x1, .f32⟩
  | .local _ .vmem, ⟨7, _⟩ => ⟨S512x1, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x2048_S8192x2048 : S4x2048x2048.ShapeCasts S8192x2048
  bitsLt_bf16_f32 : FTy.bits .bf16 < FTy.bits .f32
  transposes_S1x2048_S2048x1_1_0 : S1x2048.Transposes [1, 0] S2048x1
  bcast_S_S8192x1 : S_.BroadcastsInDim S8192x1 (![] : Fin 0 → Fin S8192x1.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S8192x2048_S4x2048x2048 : S8192x2048.ShapeCasts S4x2048x2048
  dot_S8192x2048_S2048x1_S8192x1_1_0_0_1_n_n_wf : DotDims.WF S8192x2048 S2048x1 S8192x1 [1] [0] [0] [1] [] []
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x8192.size a
  hwx0_2 : ∀ i : grid0.Coords, EltTy.bits .bf16 = 32 ∨ (Rect.block (s := S2048x8192) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S8192x2048_S2048x1_S8192x1_1_0_0_1_n_n : DotDims S8192x2048 S2048x1 S8192x1 where
  lhsContracting := [1]
  rhsContracting := [0]
  lhsNonContracting := [0]
  rhsNonContracting := [1]
  lhsBatch := []
  rhsBatch := []
  wf := dot_S8192x2048_S2048x1_S8192x1_1_0_0_1_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S1x2048 : Shape := ⟨2, ![1, 2048]⟩
abbrev S4x2048x1 : Shape := ⟨3, ![4, 2048, 1]⟩
abbrev S4x2048 : Shape := ⟨2, ![4, 2048]⟩
abbrev S_ : Shape := ⟨0, ![]⟩
abbrev S4x2048x8192 : Shape := ⟨3, ![4, 2048, 8192]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S2048x8192, .f32⟩
  | .hbm, ⟨3, _⟩ => ⟨S1x2048, .f32⟩
  | .hbm, ⟨4, _⟩ => ⟨S4x2048x1, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .i1⟩
  | .hbm, ⟨17, _⟩ => ⟨S4x2048, .f32⟩
  | .hbm, ⟨18, _⟩ => ⟨S4x2048, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .i1⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x8192, .f32⟩
  | .hbm, ⟨37, _⟩ => ⟨S_, .f32⟩
  | .hbm, ⟨38, _⟩ => ⟨S4x2048x8192, .f32⟩
  | .hbm, ⟨39, _⟩ => ⟨S4x2048x8192, .f32⟩
  | .hbm, ⟨40, _⟩ => ⟨S4x2048x8192, .f32⟩
  | .hbm, ⟨41, _⟩ => ⟨S4x2048x2048, .f32⟩
  | .hbm, ⟨42, _⟩ => ⟨S4x2048x1, .i1⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S_, .f32⟩
  | .hbm, ⟨48, _⟩ => ⟨S4x2048x2048, .i1⟩
  | .hbm, ⟨49, _⟩ => ⟨S4x2048x2048, .f32⟩
  | .hbm, ⟨50, _⟩ => ⟨S4x2048x2048, .f32⟩
  | .hbm, ⟨51, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  shapeCasts_S4x2048x1_S4x2048 : S4x2048x1.ShapeCasts S4x2048
  bcast_S_S4x2048 : S_.BroadcastsInDim S4x2048 (![] : Fin 0 → Fin S4x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x8192 : S_.BroadcastsInDim S4x2048x8192 (![] : Fin 0 → Fin S4x2048x8192.rank)
  bcast_S_S4x2048x2048 : S_.BroadcastsInDim S4x2048x2048 (![] : Fin 0 → Fin S4x2048x2048.rank)
  dot_S4x2048x2048_S1x2048_S4x2048x1_2_1_01_0_n_n_wf : DotDims.WF S4x2048x2048 S1x2048 S4x2048x1 [2] [1] [0, 1] [0] [] []
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S1x2048_S4x2048x1_2_1_01_0_n_n : DotDims S4x2048x2048 S1x2048 S4x2048x1 where
  lhsContracting := [2]
  rhsContracting := [1]
  lhsNonContracting := [0, 1]
  rhsNonContracting := [0]
  lhsBatch := []
  rhsBatch := []
  wf := dot_S4x2048x2048_S1x2048_S4x2048x1_2_1_01_0_n_n_wf
def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Spec.lean ====
/-
  The specification of the gated feed-forward block, with no program in sight.

  Everything the block computes for one output entry depends on ONE token row `xr : Fin 2048 → EReal` of the input,
  on the two weight matrices and on the router vector:
    * the row is scaled by the reciprocal root of its mean square plus a small offset (`xn`);
    * hidden unit `f` is the inner product of the scaled row with row `f` of the first weight matrix (`hid`), and its
      activation is the square of its positive part (`act`);
    * output channel `n` of the block is the inner product of the activations with row `n` of the second weight matrix
      (`mlp`), a sum over all 8192 hidden units;
    * the row's router logit is its inner product with the router vector, and the row's gate is one when the logit is
      positive and zero otherwise;
    * the result is the input entry plus the gated block output (`outRow`).
  The sum over the 8192 hidden units regroups into 16 consecutive chunks of 512 (`chunk`, `part`): the running
  total after all sixteen chunks is the whole sum (`part_sixteen`).
-/
import Idealize.ShloMosaic.PureOps.Ideal
import Idealize.ShloMosaic.Lib.ValueIdx
import proofs.«109516_j57312043598493_2_alg».proof.Proof.LibBlockSum

open scoped BigOperators

noncomputable section

namespace Cert.Spec

open Idealize.ShloMosaic Idealize.ShloMosaic.ValueIdx

/-- The reciprocal root of a row's mean square plus the offset. -/
def rinv (xr : Fin 2048 → EReal) : EReal :=
  Ideal.rsqrt (Ideal.div (∑ c : Fin 2048, xr c * xr c) (Ideal.ofBits .f32 0x45000000#32) + Ideal.ofBits .f32 0x34000000#32)

/-- The scaled row. -/
def xn (xr : Fin 2048 → EReal) (c : Fin 2048) : EReal := xr c * rinv xr

/-- Hidden unit `f` before its activation: the scaled row against row `f` of the first weight matrix. -/
def hid (xr : Fin 2048 → EReal) (wfc : Fin 8192 → Fin 2048 → EReal) (f : Fin 8192) : EReal :=
  ∑ c : Fin 2048, xn xr c * wfc f c

/-- The activation: the square of the positive part. -/
def act (xr : Fin 2048 → EReal) (wfc : Fin 8192 → Fin 2048 → EReal) (f : Fin 8192) : EReal :=
  max (hid xr wfc f) (Ideal.ofBits .f32 0x00000000#32) * max (hid xr wfc f) (Ideal.ofBits .f32 0x00000000#32)

/-- Output channel `n` of the feed-forward block: the activations against row `n` of the second weight matrix. -/
def mlp (xr : Fin 2048 → EReal) (wfc : Fin 8192 → Fin 2048 → EReal) (wp : Fin 2048 → Fin 8192 → EReal) (n : Fin 2048) : EReal :=
  ∑ f : Fin 8192, act xr wfc f * wp n f

/-- The router logit of a row. -/
def logit (xr wr : Fin 2048 → EReal) : EReal := ∑ c : Fin 2048, xr c * wr c

/-- The gate of a logit: one when positive, zero otherwise. -/
def gate (l : EReal) : EReal := if 0 < l then 1 else 0

/-- One entry of the result: the input entry plus the gated block output. -/
def outRow (xr : Fin 2048 → EReal) (wfc : Fin 8192 → Fin 2048 → EReal) (wp : Fin 2048 → Fin 8192 → EReal)
    (wr : Fin 2048 → EReal) (n : Fin 2048) : EReal :=
  xr n + mlp xr wfc wp n * gate (logit xr wr)

/-- Hidden unit `j` of chunk `q` (512 units per chunk, 16 chunks) is below 8192. -/
theorem unit_lt (q : Fin 16) (j : Fin 512) : 512 * q.val + j.val < 8192 :=
  Cert.LibBlockSum.block_lt (a := 16) (b := 512) q j

/-- The contribution of chunk `q` of the hidden units to output channel `n` (zero past the sixteenth chunk). -/
def chunk (xr : Fin 2048 → EReal) (wfc : Fin 8192 → Fin 2048 → EReal) (wp : Fin 2048 → Fin 8192 → EReal) (n : Fin 2048)
    (q : ℕ) : EReal :=
  if h : q < 16 then ∑ j : Fin 512, act xr wfc ⟨512 * q + j.val, unit_lt ⟨q, h⟩ j⟩ * wp n ⟨512 * q + j.val, unit_lt ⟨q, h⟩ j⟩ else 0

/-- The running total over the first `k` chunks. -/
def part (xr : Fin 2048 → EReal) (wfc : Fin 8192 → Fin 2048 → EReal) (wp : Fin 2048 → Fin 8192 → EReal) (n : Fin 2048)
    (k : ℕ) : EReal :=
  ∑ q ∈ Finset.range k, chunk xr wfc wp n q

theorem part_zero (xr : Fin 2048 → EReal) (wfc : Fin 8192 → Fin 2048 → EReal) (wp : Fin 2048 → Fin 8192 → EReal) (n : Fin 2048) :
    part xr wfc wp n 0 = 0 := Finset.sum_range_zero _

theorem part_succ (xr : Fin 2048 → EReal) (wfc : Fin 8192 → Fin 2048 → EReal) (wp : Fin 2048 → Fin 8192 → EReal) (n : Fin 2048)
    (k : ℕ) : part xr wfc wp n (k + 1) = part xr wfc wp n k + chunk xr wfc wp n k := Finset.sum_range_succ _ _

/-- After all sixteen chunks the running total is the whole sum over the hidden units. -/
theorem part_sixteen (xr : Fin 2048 → EReal) (wfc : Fin 8192 → Fin 2048 → EReal) (wp : Fin 2048 → Fin 8192 → EReal) (n : Fin 2048) :
    part xr wfc wp n 16 = mlp xr wfc wp n := by
  unfold part mlp
  rw [Cert.LibBlockSum.sum_range_eq_sum_fin]
  rw [← Cert.LibBlockSum.sum_blocks_mul 16 512 (fun f : Fin (16 * 512) => act xr wfc f * wp n f)]
  refine Finset.sum_congr rfl fun q _ => ?_
  unfold chunk
  rw [dif_pos q.isLt]

/-- The whole result as one function of the four argument arrays: entry `(b, t, n)` is the row formula at token row
    `(b, t)` of the input. -/
def G (x : (⟨3, ![4, 2048, 2048]⟩ : Shape).Idx → EReal) (wfc : (⟨2, ![8192, 2048]⟩ : Shape).Idx → EReal)
    (wp : (⟨2, ![2048, 8192]⟩ : Shape).Idx → EReal) (wr : (⟨2, ![1, 2048]⟩ : Shape).Idx → EReal) :
    (⟨3, ![4, 2048, 2048]⟩ : Shape).Idx → EReal := fun i =>
  outRow (fun c => x (ix3 (i 0) (i 1) c)) (fun f c => wfc (ix2 f c)) (fun n f => wp (ix2 n f))
    (fun c => wr (ix2 (0 : Fin 1) c)) (i 2)

end Cert.Spec

end
-- ==== Proof.Pieces.lean ====
/-
  What each control case of the kernel body leaves behind, as a value.

  The body keeps two buffers between the chunks of one token tile: the scaled token rows (rounded to bf16) and the
  running total of the block's output. In every case each store it performs is through the whole buffer, and each
  load reads either a whole argument buffer or what such a store just left, so the contents a case leaves are the
  payload of its LAST store applied to the blocks the loads read:
    * first chunk: the scaled rows are computed from the token block and kept; the total is first set to zero, then
      replaced by zero plus the first chunk's contribution computed from the rows just kept;
    * middle chunks: the rows are kept as they were; the total becomes the old total plus this chunk's contribution;
    * last chunk: as a middle chunk, and the result block is the token block plus the gated new total.
-/
import proofs.«109516_j57312043598493_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets of a whole-buffer access, as the constant function. -/
theorem hz : (![0, 0] : Fin 2 → Nat) = fun _ => 0 := funext fun a => by fin_cases a <;> rfl

/-- First chunk, the kept rows: the one whole-buffer store leaves the scaled, rounded token block. -/
theorem sout0_A_0_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S512x2048 .f32) (harg8 : arg8.IsWhole) (hc0 : cond0_0 i) (hc1 : ¬cond0_1 i)
    (x0 : Vec F S512x2048 .f32) (x1 : Vec F S512x2048 .bf16) (x2 : Vec F S2048x512 .bf16) (x3 : Vec F S512x1 .f32) :
    sout0_A_0 c i arg2 harg2 arg3 harg3 arg4 harg4 arg5 harg5 arg6 harg6 arg7 harg7 arg8 harg8 hc0 hc1 x0 x1 x2 x3 = k0_pay1 x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero (S := S512x2048) hz]
  simp only [View.readAt_eq_ld, harg2.read_unread, View.ld_unit_zero (S := S512x2048) hz]

/-- First chunk, the running total: of the two whole-buffer stores the later one wins; it adds the first chunk's
    contribution, computed from the rows just kept, to the zero block the earlier store left. -/
theorem sout0_A_1_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S512x2048 .f32) (harg8 : arg8.IsWhole) (hc0 : cond0_0 i) (hc1 : ¬cond0_1 i)
    (x0 : Vec F S512x2048 .f32) (x1 : Vec F S512x2048 .bf16) (x2 : Vec F S2048x512 .bf16) (x3 : Vec F S512x1 .f32) :
    sout0_A_1 c i arg2 harg2 arg3 harg3 arg4 harg4 arg5 harg5 arg6 harg6 arg7 harg7 arg8 harg8 hc0 hc1 x0 x1 x2 x3 = k0_pay3 (k0_pay1 x0) x1 (k0_pay2 (F := F)) x2 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz, View.readCov_unit_zero (S := S512x2048) _ hz,
    View.readCov_unit_zero (S := S512x2048) _ hz]
  simp only [View.readAt_eq_ld, harg2.read_unread, harg3.read_unread, harg4.read_unread,
    View.ld_unit_zero (S := S512x2048) hz, View.ld_unit_zero (S := S2048x512) hz]

/-- A middle chunk, the running total: the old total plus this chunk's contribution from the kept rows. -/
theorem sout0_B_1_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S512x2048 .f32) (harg8 : arg8.IsWhole) (hc0 : ¬cond0_0 i) (hc1 : ¬cond0_1 i)
    (x0 : Vec F S512x2048 .f32) (x1 : Vec F S512x2048 .bf16) (x2 : Vec F S2048x512 .bf16) (x3 : Vec F S512x1 .f32) (xs0 : Vec F S512x2048 .bf16) (xs1 : Vec F S512x2048 .f32) :
    sout0_B_1 c i arg2 harg2 arg3 harg3 arg4 harg4 arg5 harg5 arg6 harg6 arg7 harg7 arg8 harg8 hc0 hc1 x0 x1 x2 x3 xs0 xs1 = k0_pay3 xs0 x1 xs1 x2 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S512x2048) hz]
  simp only [View.readAt_eq_ld, harg3.read_unread, harg4.read_unread, harg7.read_unread, harg8.read_unread,
    View.ld_unit_zero (S := S512x2048) hz, View.ld_unit_zero (S := S2048x512) hz]

/-- The last chunk, the running total: as in a middle chunk. -/
theorem sout0_C_1_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S512x2048 .f32) (harg8 : arg8.IsWhole) (hc0 : ¬cond0_0 i) (hc1 : cond0_1 i)
    (x0 : Vec F S512x2048 .f32) (x1 : Vec F S512x2048 .bf16) (x2 : Vec F S2048x512 .bf16) (x3 : Vec F S512x1 .f32) (xs0 : Vec F S512x2048 .bf16) (xs1 : Vec F S512x2048 .f32) :
    sout0_C_1 c i arg2 harg2 arg3 harg3 arg4 harg4 arg5 harg5 arg6 harg6 arg7 harg7 arg8 harg8 hc0 hc1 x0 x1 x2 x3 xs0 xs1 = k0_pay3 xs0 x1 xs1 x2 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S512x2048) hz]
  simp only [View.readAt_eq_ld, harg3.read_unread, harg4.read_unread, harg7.read_unread, harg8.read_unread,
    View.ld_unit_zero (S := S512x2048) hz, View.ld_unit_zero (S := S2048x512) hz]

/-- The last chunk, the result block: the token block plus the gate times the total just completed, which is read
    back from the store that completed it. -/
theorem out0_C_4_eq (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S512x2048 .f32) (harg8 : arg8.IsWhole) (hc0 : ¬cond0_0 i) (hc1 : cond0_1 i)
    (x0 : Vec F S512x2048 .f32) (x1 : Vec F S512x2048 .bf16) (x2 : Vec F S2048x512 .bf16) (x3 : Vec F S512x1 .f32) (xs0 : Vec F S512x2048 .bf16) (xs1 : Vec F S512x2048 .f32) :
    out0_C_4 c i arg2 harg2 arg3 harg3 arg4 harg4 arg5 harg5 arg6 harg6 arg7 harg7 arg8 harg8 hc0 hc1 x0 x1 x2 x3 xs0 xs1 = k0_pay4 (k0_pay3 xs0 x1 xs1 x2) x3 x0 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S512x2048) hz, View.readCov_unit_zero (S := S512x2048) _ hz]
  simp only [View.readAt_eq_ld, harg2.read_unread, harg3.read_unread, harg4.read_unread, harg5.read_unread,
    harg7.read_unread, harg8.read_unread,
    View.ld_unit_zero (S := S512x2048) hz, View.ld_unit_zero (S := S2048x512) hz, View.ld_unit_zero (S := S512x1) hz]

end Cert.KernelIdeal.Pieces

end
-- ==== Proof.Payload.lean ====
/-
  The four values the kernel body stores, each read at one entry `(p, q)` of its 512 × 2048 block.

  * The first is the block of the input scaled row by row: entry `(p, q)` is the input entry times the reciprocal
    root of (the mean of the squares of row `p` plus a small offset). The row's sum of squares is a sum along the
    lanes, kept as a column `[512, 1]` and repeated along the row before the product.
  * The second is the zero block the running total starts from.
  * The third adds one chunk of hidden units to the running total: hidden unit `j` of the chunk at row `p` is the
    inner product of row `p` of the scaled block with row `j` of the first weight block; its activation is the
    square of its positive part; entry `(p, q)` gains the inner product of the 512 activations of row `p` with
    row `q` of the second weight block. Both products contract the LAST axis of both operands.
  * The fourth is the residual entry plus the running total times the row's gate, the gate being a column
    `[512, 1]` repeated along the row.
  A change of float format is the identity on the extended reals, and a reshape to the same shape is the identity, so
  neither leaves a trace in the formulas.
-/
import proofs.«109516_j57312043598493_2_alg».proof.Proof.Gen.KernelIdeal.Skeleton
import proofs.«109516_j57312043598493_2_alg».proof.Proof.Spec
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Payload

open Idealize.ShloMosaic Idealize.ShloMosaic.ValueIdx
open Cert.KernelIdeal Cert.KernelIdeal.Gen

/-! ## Columns: a vector as a column, and a column repeated along the rows -/

/-- A vector `[a]` viewed as a column `[a, 1]` reads, at `(i, u)`, the vector at `i`: both have row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the rows to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scaled block -/

/-- The sum along the lanes of a 512 × 2048 block, at row `p`, is the sum of the row's 2048 entries. -/
theorem rowSum_apply (src : FVec Ideal S512x2048 .f32) (hφ : FKind.Formats .f32)
    (hacc : (0x00000000#32 : BitVec 32) = FKind.add.neutral .f32 hφ) (p : Fin 512) :
    multiReduction .add [1] S512 src 0x00000000#32 reduces_S512x2048_S512 hφ hacc (ix1 p)
      = ∑ c : Fin 2048, src (ix2 p c) := by
  refine (Ideal.multiReduction_add_single src 0x00000000#32 reduces_S512x2048_S512 hφ hacc (ix1 p)).trans ?_
  refine Finset.sum_congr rfl fun c _ => ?_
  exact congrArg src (funext fun a => Fin.ext (by match a with | ⟨0, _⟩ => rfl | ⟨1, _⟩ => rfl))

/-- Entry `(p, q)` of the scaled block is entry `q` of the scaled row `p`: the input entry times the reciprocal
    root of the row's mean square plus the offset. -/
theorem pay1_apply (x0 : Vec Ideal S512x2048 .f32) (p : Fin 512) (q : Fin 2048) :
    k0_pay1 (F := Ideal) x0 (ix2 p q) = Cert.Spec.xn (fun c => x0 (ix2 p c)) q := by
  unfold k0_pay1 Cert.Spec.xn Cert.Spec.rinv
  dsimp only
  rw [shapeCast_self, shapeCast_self]
  -- the entry times the repeated column; the column at `(p, 0)` is the reciprocal root of the row's statistic
  refine congrArg (x0 (ix2 p q) * ·) ?_
  refine (broadcastTo_a1_ab_apply _ _ p q).trans ?_
  refine congrArg (fun z => Ideal.rsqrt (Ideal.div z (Ideal.ofBits .f32 0x45000000#32) + Ideal.ofBits .f32 0x34000000#32)) ?_
  -- the statistic's column at `(p, 0)` is the lane sum at `p`
  refine (shapeCast_a_a1_apply _ _ p (0 : Fin 1)).trans ?_
  exact rowSum_apply _ _ _ p

/-! ## The zero block -/

/-- Every entry of the block the running total starts from is zero. -/
theorem pay2_apply (p : Fin 512) (q : Fin 2048) : k0_pay2 (F := Ideal) (ix2 p q) = 0 := by
  unfold k0_pay2
  refine (congrFun (shapeCast_self _ _) (ix2 p q)).trans ?_
  exact Ideal.ofBits_zero_f32

/-! ## One chunk of hidden units

Each of the two products contracts axis 1 of both operands: at result entry `(i, j)` and contraction position `k` the
left operand is read at `(i, k)` and the right one at `(j, k)`. -/

theorem lhs1_0 (i : S512x512.Idx) (k : dot_S512x2048_S512x2048_S512x512_1_1_0_0_n_n.contr.Idx) :
    (dot_S512x2048_S512x2048_S512x512_1_1_0_0_n_n.lhsIdx i k 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem lhs1_1 (i : S512x512.Idx) (k : dot_S512x2048_S512x2048_S512x512_1_1_0_0_n_n.contr.Idx) :
    (dot_S512x2048_S512x2048_S512x512_1_1_0_0_n_n.lhsIdx i k 1).val = (k ⟨0, by decide⟩).val :=
  dot_S512x2048_S512x2048_S512x512_1_1_0_0_n_n.lhsIdx_val_of_single rfl i k
theorem rhs1_0 (i : S512x512.Idx) (k : dot_S512x2048_S512x2048_S512x512_1_1_0_0_n_n.contr.Idx) :
    (dot_S512x2048_S512x2048_S512x512_1_1_0_0_n_n.rhsIdx i k 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem rhs1_1 (i : S512x512.Idx) (k : dot_S512x2048_S512x2048_S512x512_1_1_0_0_n_n.contr.Idx) :
    (dot_S512x2048_S512x2048_S512x512_1_1_0_0_n_n.rhsIdx i k 1).val = (k ⟨0, by decide⟩).val :=
  dot_S512x2048_S512x2048_S512x512_1_1_0_0_n_n.rhsIdx_val_of_single rfl i k

/-- The first product into a zero accumulator: entry `(p, j)` is the inner product of row `p` of the left block with
    row `j` of the right block, over their 2048 columns. -/
theorem hidden_apply (lhs rhs : FVec Ideal S512x2048 .bf16) (p j : Fin 512) :
    matmul dot_S512x2048_S512x2048_S512x512_1_1_0_0_n_n none lhs rhs (constant (F := Ideal) S512x512 .f32 0x00000000#32) (ix2 p j)
      = ∑ c : Fin 2048, lhs (ix2 p c) * rhs (ix2 j c) := by
  simp only [matmul]
  rw [Ideal.matmul_constant_zero_apply,
    ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p j) ((contrEquiv1 dot_S512x2048_S512x2048_S512x512_1_1_0_0_n_n 2048 rfl rfl).symm k) = ix2 p k :=
    funext fun a => Fin.ext (by
      match a with
      | ⟨0, _⟩ => exact lhs1_0 _ _
      | ⟨1, _⟩ => exact (lhs1_1 _ _).trans hk)
  have er : dot_S512x2048_S512x2048_S512x512_1_1_0_0_n_n.rhsIdx (ix2 p j) ((contrEquiv1 dot_S512x2048_S512x2048_S512x512_1_1_0_0_n_n 2048 rfl rfl).symm k) = ix2 j k :=
    funext fun a => Fin.ext (by
      match a with
      | ⟨0, _⟩ => exact rhs1_0 _ _
      | ⟨1, _⟩ => exact (rhs1_1 _ _).trans hk)
  rw [el, er]

theorem lhs2_0 (i : S512x2048.Idx) (k : dot_S512x512_S2048x512_S512x2048_1_1_0_0_n_n.contr.Idx) :
    (dot_S512x512_S2048x512_S512x2048_1_1_0_0_n_n.lhsIdx i k 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem lhs2_1 (i : S512x2048.Idx) (k : dot_S512x512_S2048x512_S512x2048_1_1_0_0_n_n.contr.Idx) :
    (dot_S512x512_S2048x512_S512x2048_1_1_0_0_n_n.lhsIdx i k 1).val = (k ⟨0, by decide⟩).val :=
  dot_S512x512_S2048x512_S512x2048_1_1_0_0_n_n.lhsIdx_val_of_single rfl i k
theorem rhs2_0 (i : S512x2048.Idx) (k : dot_S512x512_S2048x512_S512x2048_1_1_0_0_n_n.contr.Idx) :
    (dot_S512x512_S2048x512_S512x2048_1_1_0_0_n_n.rhsIdx i k 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem rhs2_1 (i : S512x2048.Idx) (k : dot_S512x512_S2048x512_S512x2048_1_1_0_0_n_n.contr.Idx) :
    (dot_S512x512_S2048x512_S512x2048_1_1_0_0_n_n.rhsIdx i k 1).val = (k ⟨0, by decide⟩).val :=
  dot_S512x512_S2048x512_S512x2048_1_1_0_0_n_n.rhsIdx_val_of_single rfl i k

/-- The second product into a zero accumulator: entry `(p, q)` is the inner product of row `p` of the left block
    with row `q` of the right block, over their 512 columns. -/
theorem out_apply (lhs : FVec Ideal S512x512 .bf16) (rhs : FVec Ideal S2048x512 .bf16) (p : Fin 512) (q : Fin 2048) :
    matmul dot_S512x512_S2048x512_S512x2048_1_1_0_0_n_n none lhs rhs (constant (F := Ideal) S512x2048 .f32 0x00000000#32) (ix2 p q)
      = ∑ j : Fin 512, lhs (ix2 p j) * rhs (ix2 q j) := by
  simp only [matmul]
  rw [Ideal.matmul_constant_zero_apply,
    ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k :=
    funext fun a => Fin.ext (by
      match a with
      | ⟨0, _⟩ => exact lhs2_0 _ _
      | ⟨1, _⟩ => exact (lhs2_1 _ _).trans hk)
  have er : dot_S512x512_S2048x512_S512x2048_1_1_0_0_n_n.rhsIdx (ix2 p q) ((contrEquiv1 dot_S512x512_S2048x512_S512x2048_1_1_0_0_n_n 512 rfl rfl).symm k) = ix2 q k :=
    funext fun a => Fin.ext (by
      match a with
      | ⟨0, _⟩ => exact rhs2_0 _ _
      | ⟨1, _⟩ => exact (rhs2_1 _ _).trans hk)
  rw [el, er]

/-- Entry `(p, q)` of the updated running total: the old entry plus, over the chunk's 512 hidden units `j`, the
    squared positive part of (row `p` of the scaled block against row `j` of the first weight block) times entry
    `(q, j)` of the second weight block. -/
theorem pay3_apply (v3 v4 : Vec Ideal S512x2048 .bf16) (v11 : Vec Ideal S512x2048 .f32) (v12 : Vec Ideal S2048x512 .bf16)
    (p : Fin 512) (q : Fin 2048) :
    k0_pay3 (F := Ideal) v3 v4 v11 v12 (ix2 p q) = v11 (ix2 p q) + ∑ j : Fin 512,
      (max (∑ c : Fin 2048, v3 (ix2 p c) * v4 (ix2 j c)) (Ideal.ofBits .f32 0x00000000#32)
        * max (∑ c : Fin 2048, v3 (ix2 p c) * v4 (ix2 j c)) (Ideal.ofBits .f32 0x00000000#32)) * v12 (ix2 q j) := by
  unfold k0_pay3
  rw [shapeCast_self, shapeCast_self, shapeCast_self]
  refine (addf_apply _ _ _).trans ?_
  refine congrArg (v11 (ix2 p q) + ·) ?_
  refine (out_apply _ _ p q).trans ?_
  refine Finset.sum_congr rfl fun j _ => ?_
  refine congrArg (· * v12 (ix2 q j)) ?_
  -- the activation of hidden unit `j` at row `p`: a function of the first product's entry `(p, j)` alone
  exact congrArg (fun z => max z (Ideal.ofBits .f32 0x00000000#32) * max z (Ideal.ofBits .f32 0x00000000#32))
    (hidden_apply v3 v4 p j)

/-! ## The gated result -/

/-- Entry `(p, q)` of the result: the residual entry plus the running total's entry times the gate of row `p`. -/
theorem pay4_apply (v22 : Vec Ideal S512x2048 .f32) (v23 : Vec Ideal S512x1 .f32) (v27 : Vec Ideal S512x2048 .f32)
    (p : Fin 512) (q : Fin 2048) :
    k0_pay4 (F := Ideal) v22 v23 v27 (ix2 p q) = v27 (ix2 p q) + v22 (ix2 p q) * v23 (ix2 p (0 : Fin 1)) := by
  unfold k0_pay4
  show shapeCast S512x2048 v27 shapeCasts_S512x2048_S512x2048 (ix2 p q)
      + v22 (ix2 p q) * broadcastTo S512x2048 (shapeCast S512x1 v23 shapeCasts_S512x1_S512x1) broadcasts_S512x1_S512x2048 (ix2 p q) = _
  rw [shapeCast_self, shapeCast_self]
  exact congrArg (fun z => v27 (ix2 p q) + v22 (ix2 p q) * z) (broadcastTo_a1_ab_apply v23 _ p q)

end Cert.KernelIdeal.Payload

end
-- ==== Proof.Blocks.lean ====
/-
  The windows of the fused call, read at an index.

  The grid has 256 points; point `t` works on token tile `t / 16` (512 rows of the flattened input) and on chunk
  `t % 16` of the hidden units (512 units). Its input blocks are: rows `512 (t / 16) + p` of the flattened input and of
  the gate column; rows `512 (t % 16) + j` of the first weight matrix; columns `512 (t % 16) + j` of the second.
-/
import proofs.«109516_j57312043598493_2_alg».proof.Proof.Gen.KernelIdeal.Frame
import Idealize.ShloMosaic.Lib.ValueIdx
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps, decided once over the grid: the token tile is `t / 16`, the chunk `t % 16`. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

theorem lt_N (t : Fin cfg0.N) : t.val < 256 := lt_of_lt_of_eq t.isLt (show cfg0.N = 256 from N_0)

/-- Row `p` of the token tile of point `t`, as a row of the flattened input. -/
def rowAt (t : Fin cfg0.N) (p : Fin 512) : Fin 8192 :=
  ⟨512 * (t.val / 16) + p.val, by have := lt_N t; have := p.isLt; omega⟩

/-- Hidden unit `j` of the chunk of point `t`. -/
def unitAt (t : Fin cfg0.N) (j : Fin 512) : Fin 8192 :=
  ⟨512 * (t.val % 16) + j.val, by have := j.isLt; omega⟩

/-- The input tile of point `t`: rows `512 (t / 16) + p` of the flattened input. -/
theorem iblk0_apply (c : Dev nD) (t : Fin cfg0.N) (p : Fin 512) (k : Fin 2048) :
    (iblk m c 0 t : Vec F S512x2048 .f32) (ix2 p k)
      = (V m c main_v0 : S8192x2048.Idx → Elt F .f32) (ix2 (rowAt t p) k) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 512 + 1 * p.val = 512 * (t.val / 16) + p.val; rw [e0]; omega
  | ⟨1, _⟩ => show win0_0.index t 1 * 2048 + 1 * k.val = k.val; rw [e1]; omega

/-- The first weight block of point `t`: rows `512 (t % 16) + j` of the first weight matrix. -/
theorem iblk1_apply (c : Dev nD) (t : Fin cfg0.N) (j : Fin 512) (k : Fin 2048) :
    (iblk m c 1 t : Vec F S512x2048 .bf16) (ix2 j k)
      = (V m c main_v1 : S8192x2048.Idx → Elt F .bf16) (ix2 (unitAt t j) k) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 512 + 1 * j.val = 512 * (t.val % 16) + j.val; rw [e0]; omega
  | ⟨1, _⟩ => show win0_1.index t 1 * 2048 + 1 * k.val = k.val; rw [e1]; omega

/-- The second weight block of point `t`: columns `512 (t % 16) + j` of the second weight matrix. -/
theorem iblk2_apply (c : Dev nD) (t : Fin cfg0.N) (n : Fin 2048) (j : Fin 512) :
    (iblk m c 2 t : Vec F S2048x512 .bf16) (ix2 n j)
      = (V m c main_v2 : S2048x8192.Idx → Elt F .bf16) (ix2 n (unitAt t j)) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t 0 * 2048 + 1 * n.val = n.val; rw [e0]; omega
  | ⟨1, _⟩ => show win0_2.index t 1 * 512 + 1 * j.val = 512 * (t.val % 16) + j.val; rw [e1]; omega

/-- The gate block of point `t`: rows `512 (t / 16) + p` of the gate column. -/
theorem iblk3_apply (c : Dev nD) (t : Fin cfg0.N) (p : Fin 512) (z : Fin 1) :
    (iblk m c 3 t : Vec F S512x1 .f32) (ix2 p z)
      = (V m c main_v7 : S8192x1.Idx → Elt F .f32) (ix2 (rowAt t p) (0 : Fin 1)) := by
  obtain ⟨-, -, -, -, -, -, e0, e1, -⟩ := idx_facts t
  unfold iblk
  rw [View.read_apply]
  show V m c main_v7 _ = V m c main_v7 _
  congr 1
  funext a
  apply Fin.ext
  match a with
  | ⟨0, _⟩ => show win0_3.index t 0 * 512 + 1 * p.val = 512 * (t.val / 16) + p.val; rw [e0]; omega
  | ⟨1, _⟩ => show win0_3.index t 1 * 1 + 1 * z.val = 0; rw [e1]; have := z.isLt; omega

end Cert.KernelIdeal.Blocks

end
-- ==== Proof.HostPre.lean ====
/-
  The arrays the fused call finds, in terms of the four arguments.

  Before the call the program flattens the input to 8192 token rows (row `r` is batch `r / 2048`, position `r % 2048`),
  changes the two weight matrices' float format (the identity on extended reals), and computes the gate column: the
  inner product of each token row with the router vector, compared with zero, the comparison's bit read as 0 or 1.
-/
import proofs.«109516_j57312043598493_2_alg».proof.Proof.Gen.KernelIdeal.Frame
import proofs.«109516_j57312043598493_2_alg».proof.Proof.Spec
import Idealize.ShloMosaic.Lib.ValueIdx
import Idealize.ShloMosaic.Lib.Pipeline.Value
import Idealize.ShloMosaic.Lib.StableHlo.Run
import Idealize.ShloMosaic.PureOps.Ideal.Laws

open scoped BigOperators

noncomputable section

namespace Cert.KernelIdeal.HostPre

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The batch and the position of token row `r`. -/
def tokB (r : Fin 8192) : Fin 4 := ⟨r.val / 2048, by have := r.isLt; omega⟩
def tokT (r : Fin 8192) : Fin 2048 := ⟨r.val % 2048, by omega⟩

/-- Token row `r` of the input argument. -/
def Xr (c : Dev nD) (r : Fin 8192) : Fin 2048 → EReal := fun k =>
  (m ((c : Thread nD τ).loc main_arg0) : S4x2048x2048.Idx → Elt Ideal .f32) (ix3 (tokB r) (tokT r) k)

/-- The two weight arguments and the router argument, by coordinates. -/
def W1 (c : Dev nD) : Fin 8192 → Fin 2048 → EReal := fun f k =>
  (m ((c : Thread nD τ).loc main_arg1) : S8192x2048.Idx → Elt Ideal .f32) (ix2 f k)
def W2 (c : Dev nD) : Fin 2048 → Fin 8192 → EReal := fun n f =>
  (m ((c : Thread nD τ).loc main_arg2) : S2048x8192.Idx → Elt Ideal .f32) (ix2 n f)
def Wr (c : Dev nD) : Fin 2048 → EReal := fun k =>
  (m ((c : Thread nD τ).loc main_arg3) : S1x2048.Idx → Elt Ideal .f32) (ix2 (0 : Fin 1) k)

/-- The flattened input the call finds: entry `(r, k)` is entry `k` of token row `r`. -/
theorem flat_apply (c : Dev nD) (r : Fin 8192) (k : Fin 2048) :
    (V m c main_v0 : S8192x2048.Idx → Elt Ideal .f32) (ix2 r k) = Xr m c r k := by
  have e : (V m c main_v0 : S8192x2048.Idx → Elt Ideal .f32)
      = shapeCast S8192x2048 (m ((c : Thread nD τ).loc main_arg0)) shapeCasts_S4x2048x2048_S8192x2048 := by
    show StableHlo.after hostOps0 (fun b => m (c, b)) (Proc.devRef .tc main_v0) = _
    after_results
    rfl
  rw [e]
  exact shapeCast_apply _ _ (ix2 r k) (ix3 (tokB r) (tokT r) k)
    (by rewrite [Shape.rowMajor_val_three, Shape.rowMajor_val_two]
        show (r.val / 2048 * 2048 + r.val % 2048) * 2048 + k.val = r.val * 2048 + k.val
        omega)

/-- The first weight matrix the call finds is the argument (a change of float format only). -/
theorem w1_apply (c : Dev nD) (f : Fin 8192) (k : Fin 2048) :
    (V m c main_v1 : S8192x2048.Idx → Elt Ideal .bf16) (ix2 f k) = W1 m c f k := by
  have e : (V m c main_v1 : S8192x2048.Idx → Elt Ideal .bf16)
      = (truncf .bf16 (m ((c : Thread nD τ).loc main_arg1) : FVec Ideal S8192x2048 .f32) bitsLt_bf16_f32 : FVec Ideal S8192x2048 .bf16) := by
    show StableHlo.after hostOps0 (fun b => m (c, b)) (Proc.devRef .tc main_v1) = _
    after_results
  rw [e]
  rfl

/-- The second weight matrix the call finds is the argument (a change of float format only). -/
theorem w2_apply (c : Dev nD) (n : Fin 2048) (f : Fin 8192) :
    (V m c main_v2 : S2048x8192.Idx → Elt Ideal .bf16) (ix2 n f) = W2 m c n f := by
  have e : (V m c main_v2 : S2048x8192.Idx → Elt Ideal .bf16)
      = (truncf .bf16 (m ((c : Thread nD τ).loc main_arg2) : FVec Ideal S2048x8192 .f32) bitsLt_bf16_f32 : FVec Ideal S2048x8192 .bf16) := by
    show StableHlo.after hostOps0 (fun b => m (c, b)) (Proc.devRef .tc main_v2) = _
    after_results
  rw [e]
  rfl

/-- A comparison with the zero literal, its bit read as a number, is the gate. -/
theorem gate_eq (L : EReal) :
    FloatOps.uitofp (F := Ideal) .f32 (FloatOps.cmpf (F := Ideal) .ogt L (Ideal.ofBits .f32 0x00000000#32)) = Cert.Spec.gate L := by
  show (((Ideal.cmp .ogt L (Ideal.ofBits .f32 0x00000000#32)).toNat : ℝ) : EReal) = _
  rw [Ideal.ofBits_zero_f32]
  unfold Ideal.cmp Cert.Spec.gate
  by_cases h : (0 : EReal) < L
  · simp [h]
  · simp [h]

theorem lhs_row (i : S8192x1.Idx) (q : dot_S8192x2048_S2048x1_S8192x1_1_0_0_1_n_n.contr.Idx) : (dot_S8192x2048_S2048x1_S8192x1_1_0_0_1_n_n.lhsIdx i q 0).val = (i 0).val := by
  unfold DotDims.lhsIdx
  rw [dif_neg (show ¬(0 : Fin S8192x2048.rank) ∈ dot_S8192x2048_S2048x1_S8192x1_1_0_0_1_n_n.lhsBatch by decide), dif_pos (show (0 : Fin S8192x2048.rank) ∈ dot_S8192x2048_S2048x1_S8192x1_1_0_0_1_n_n.lhsNonContracting by decide)]
  rfl
theorem lhs_col (i : S8192x1.Idx) (q : dot_S8192x2048_S2048x1_S8192x1_1_0_0_1_n_n.contr.Idx) : (dot_S8192x2048_S2048x1_S8192x1_1_0_0_1_n_n.lhsIdx i q 1).val = (q ⟨0, by decide⟩).val :=
  dot_S8192x2048_S2048x1_S8192x1_1_0_0_1_n_n.lhsIdx_val_of_single rfl i q
theorem rhs_row (i : S8192x1.Idx) (q : dot_S8192x2048_S2048x1_S8192x1_1_0_0_1_n_n.contr.Idx) : (dot_S8192x2048_S2048x1_S8192x1_1_0_0_1_n_n.rhsIdx i q 0).val = (q ⟨0, by decide⟩).val :=
  dot_S8192x2048_S2048x1_S8192x1_1_0_0_1_n_n.rhsIdx_val_of_single rfl i q
theorem rhs_col (i : S8192x1.Idx) (q : dot_S8192x2048_S2048x1_S8192x1_1_0_0_1_n_n.contr.Idx) : (dot_S8192x2048_S2048x1_S8192x1_1_0_0_1_n_n.rhsIdx i q 1).val = (i 1).val := by
  unfold DotDims.rhsIdx
  rw [dif_neg (show ¬(1 : Fin S2048x1.rank) ∈ dot_S8192x2048_S2048x1_S8192x1_1_0_0_1_n_n.rhsBatch by decide), dif_pos (show (1 : Fin S2048x1.rank) ∈ dot_S8192x2048_S2048x1_S8192x1_1_0_0_1_n_n.rhsNonContracting by decide)]
  rfl

/-- The gate column the call finds: the gate of each token row's router logit. -/
theorem gate_col_apply (c : Dev nD) (r : Fin 8192) :
    (V m c main_v7 : S8192x1.Idx → Elt Ideal .f32) (ix2 r (0 : Fin 1))
      = Cert.Spec.gate (Cert.Spec.logit (Xr m c r) (Wr m c)) := by
  have e : (V m c main_v7 : S8192x1.Idx → Elt Ideal .f32)
      = (uitofp (F := Ideal) .f32 (cmpf (F := Ideal) .ogt
          (Host.dotGeneral dot_S8192x2048_S2048x1_S8192x1_1_0_0_1_n_n none
            (shapeCast S8192x2048 (m ((c : Thread nD τ).loc main_arg0)) shapeCasts_S4x2048x2048_S8192x2048 : FVec Ideal S8192x2048 .f32)
            (transpose S2048x1 [1, 0] (m ((c : Thread nD τ).loc main_arg3)) transposes_S1x2048_S2048x1_1_0 : FVec Ideal S2048x1 .f32))
          (broadcastInDim S8192x1 ![] bcast_S_S8192x1 (constant (F := Ideal) S_ .f32 0x00000000#32) : FVec Ideal S8192x1 .f32)) : FVec Ideal S8192x1 .f32) := by
    show StableHlo.after hostOps0 (fun b => m (c, b)) (Proc.devRef .tc main_v7) = _
    after_results
    rfl
  rw [e]
  refine Eq.trans ?_ (gate_eq _)
  show FloatOps.uitofp (F := Ideal) .f32 (FloatOps.cmpf (F := Ideal) .ogt (Host.dotGeneral dot_S8192x2048_S2048x1_S8192x1_1_0_0_1_n_n none _ _ (ix2 r (0 : Fin 1))) _) = _
  refine congrArg (fun L => FloatOps.uitofp (F := Ideal) .f32 (FloatOps.cmpf (F := Ideal) .ogt L (Ideal.ofBits .f32 0x00000000#32))) ?_
  simp only [Host.dotGeneral]
  rw [Ideal.dotGeneral_apply, ← Equiv.sum_comp (contrEquiv1 dot_S8192x2048_S2048x1_S8192x1_1_0_0_1_n_n 2048 rfl rfl).symm]
  unfold Cert.Spec.logit
  refine Finset.sum_congr rfl fun k _ => ?_
  have hk := contrEquiv1_symm_val dot_S8192x2048_S2048x1_S8192x1_1_0_0_1_n_n 2048 rfl rfl k
  congr 1
  · refine (shapeCast_apply _ _ _ (ix3 (tokB r) (tokT r) k) ?_)
    rewrite [Shape.rowMajor_val_three, Shape.rowMajor_val_two, lhs_row, lhs_col, hk]
    show (r.val / 2048 * 2048 + r.val % 2048) * 2048 + k.val = r.val * 2048 + k.val
    omega
  · refine (transpose_apply _ _ _ _ (ix2 (0 : Fin 1) k) fun b => ?_)
    match b with
    | ⟨0, _⟩ => show k.val = _; exact ((rhs_row _ _).trans hk).symm
    | ⟨1, _⟩ => show (0 : ℕ) = _; exact (rhs_col (ix2 r (0 : Fin 1)) _).symm

end Cert.KernelIdeal.HostPre

end
-- ==== Proof.Invariant.lean ====
/-
  What the two carried buffers and the output block hold after each grid point.

  Point `t` works on token tile `t / 16` and on chunk `t % 16` of the hidden units. By induction on the point: the first
  carried buffer holds the tile's scaled rows (written at the tile's first chunk, kept afterwards), and the second holds,
  for row `p` and output channel `q`, the running total of the block output over the chunks `0 … t % 16`. At a tile's last
  chunk the running total is the whole sum over the hidden units, and the output block is the input entry plus that sum
  times the row's gate.
-/
import proofs.«109516_j57312043598493_2_alg».proof.Proof.Pieces
import proofs.«109516_j57312043598493_2_alg».proof.Proof.Payload
import proofs.«109516_j57312043598493_2_alg».proof.Proof.Blocks
import proofs.«109516_j57312043598493_2_alg».proof.Proof.HostPre
import proofs.«109516_j57312043598493_2_alg».proof.Proof.Spec

open scoped BigOperators

noncomputable section

namespace Cert.KernelIdeal.Inv

open Idealize.ShloMosaic Idealize.ShloMosaic.TcCoe Idealize.SL.Sem Idealize.ShloMosaic.ValueIdx
open Cert.KernelIdeal Cert.KernelIdeal.Gen
open Cert.KernelIdeal.Blocks Cert.KernelIdeal.HostPre Cert.KernelIdeal.Pieces Cert.KernelIdeal.Payload

variable (m : (ℓ : Loc nD τ sig) → Buf (Elt Ideal) ℓ)

/-- One chunk's contribution, from blocks that hold the scaled row and the chunk's rows and columns of the weights. -/
theorem chunk_eq (A : Fin 8192 → Fin 2048 → EReal) (B : Fin 2048 → Fin 8192 → EReal) (u : ℕ) (hu : u < 16)
    (xr : Fin 2048 → EReal) (xs0 b1 : Vec Ideal S512x2048 .bf16) (b2 : Vec Ideal S2048x512 .bf16) (p : Fin 512) (q : Fin 2048)
    (hx : ∀ k, xs0 (ix2 p k) = Cert.Spec.xn xr k)
    (hb1 : ∀ (j : Fin 512) (k : Fin 2048), b1 (ix2 j k) = A ⟨512 * u + j.val, Cert.Spec.unit_lt ⟨u, hu⟩ j⟩ k)
    (hb2 : ∀ j : Fin 512, b2 (ix2 q j) = B q ⟨512 * u + j.val, Cert.Spec.unit_lt ⟨u, hu⟩ j⟩) :
    (∑ j : Fin 512, (max (∑ k : Fin 2048, xs0 (ix2 p k) * b1 (ix2 j k)) (Ideal.ofBits .f32 0x00000000#32)
        * max (∑ k : Fin 2048, xs0 (ix2 p k) * b1 (ix2 j k)) (Ideal.ofBits .f32 0x00000000#32)) * b2 (ix2 q j))
      = Cert.Spec.chunk xr A B q u := by
  unfold Cert.Spec.chunk
  rw [dif_pos hu]
  refine Finset.sum_congr rfl fun j _ => ?_
  rw [hb2 j]
  unfold Cert.Spec.act Cert.Spec.hid
  have e : ∀ k : Fin 2048, xs0 (ix2 p k) * b1 (ix2 j k)
      = Cert.Spec.xn xr k * A ⟨512 * u + j.val, Cert.Spec.unit_lt ⟨u, hu⟩ j⟩ k := fun k => by rw [hx k, hb1 j k]
  simp only [e]

/-- The input tile's row `p` at point `t` is token row `512 (t / 16) + p` of the input argument. -/
theorem tile_row (c : Dev nD) (t : Fin cfg0.N) (p : Fin 512) :
    (fun k => (iblk m c 0 t : Vec Ideal S512x2048 .f32) (ix2 p k)) = Xr m c (rowAt t p) :=
  funext fun k => (iblk0_apply m c t p k).trans (flat_apply m c (rowAt t p) k)

/-- ONE ACCUMULATION STEP at point `t`: from a first buffer holding the scaled row and a second holding `a`, the body
    leaves `a` plus the contribution of chunk `t % 16`. -/
theorem acc_step (c : Dev nD) (t : Fin cfg0.N) (p : Fin 512) (q : Fin 2048) (xs0 : Vec Ideal S512x2048 .bf16)
    (xs1 : Vec Ideal S512x2048 .f32) (a : EReal)
    (hx : ∀ k, xs0 (ix2 p k) = Cert.Spec.xn (Xr m c (rowAt t p)) k) (ha : xs1 (ix2 p q) = a) :
    k0_pay3 (F := Ideal) xs0 (iblk m c 1 t) xs1 (iblk m c 2 t) (ix2 p q)
      = a + Cert.Spec.chunk (Xr m c (rowAt t p)) (W1 m c) (W2 m c) q (t.val % 16) := by
  refine (pay3_apply xs0 (iblk m c 1 t) xs1 (iblk m c 2 t) p q).trans ?_
  refine congrArg₂ (· + ·) ha ?_
  exact chunk_eq (W1 m c) (W2 m c) (t.val % 16) (Nat.mod_lt _ (by decide)) (Xr m c (rowAt t p)) xs0 (iblk m c 1 t) (iblk m c 2 t) p q hx
    (fun j k => (iblk1_apply m c t j k).trans (w1_apply m c (unitAt t j) k))
    (fun j => (iblk2_apply m c t q j).trans (w2_apply m c q (unitAt t j)))

/-- The invariant after position `n`. -/
def Good (c : Dev nD) (n : ℕ) (h : n < cfg0.N) : Prop :=
  (∀ (p : Fin 512) (k : Fin 2048), ((outsAt0 m c n h).2.1 : Vec Ideal S512x2048 .bf16) (ix2 p k)
      = Cert.Spec.xn (Xr m c (rowAt ⟨n, h⟩ p)) k)
  ∧ (∀ (p : Fin 512) (q : Fin 2048), ((outsAt0 m c n h).2.2 : Vec Ideal S512x2048 .f32) (ix2 p q)
      = Cert.Spec.part (Xr m c (rowAt ⟨n, h⟩ p)) (W1 m c) (W2 m c) q (n % 16 + 1))

/-- A tile's first chunk: the scaled rows are written, and the running total starts from zero. -/
theorem good_first (c : Dev nD) (t : Fin cfg0.N) (h0 : t.val % 16 = 0) : Good m c t.val t.isLt := by
  have h1 : ¬t.val % 16 = 15 := by omega
  have e1 : (outsAt0 m c t.val t.isLt).2.1 = k0_pay1 (F := Ideal) (iblk m c 0 t) := by
    rw [outsAt0_A m c t h0 h1]
    dsimp only
    exact sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  have e2 : (outsAt0 m c t.val t.isLt).2.2
      = k0_pay3 (F := Ideal) (k0_pay1 (F := Ideal) (iblk m c 0 t)) (iblk m c 1 t) (k0_pay2 (F := Ideal)) (iblk m c 2 t) := by
    rw [outsAt0_A m c t h0 h1]
    dsimp only
    exact sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  have hx : ∀ (p : Fin 512) (k : Fin 2048), k0_pay1 (F := Ideal) (iblk m c 0 t) (ix2 p k) = Cert.Spec.xn (Xr m c (rowAt t p)) k :=
    fun p k => (pay1_apply (iblk m c 0 t) p k).trans (congrArg (fun xr => Cert.Spec.xn xr k) (tile_row m c t p))
  unfold Good
  refine ⟨fun p k => (congrFun e1 (ix2 p k)).trans (hx p k), fun p q => (congrFun e2 (ix2 p q)).trans ?_⟩
  refine (acc_step m c t p q (k0_pay1 (F := Ideal) (iblk m c 0 t)) (k0_pay2 (F := Ideal)) 0 (hx p) (pay2_apply p q)).trans ?_
  rw [h0, Cert.Spec.part_succ, Cert.Spec.part_zero]

/-- A later chunk of a tile: the scaled rows are kept, and the running total gains the chunk's contribution. -/
theorem good_next (c : Dev nD) (t : Fin cfg0.N) (h0 : ¬t.val % 16 = 0)
    (ih : Good m c (t.val - 1) (Nat.lt_of_le_of_lt (Nat.sub_le _ _) t.isLt)) : Good m c t.val t.isLt := by
  have hrow : ∀ p : Fin 512, rowAt (⟨t.val - 1, Nat.lt_of_le_of_lt (Nat.sub_le _ _) t.isLt⟩ : Fin cfg0.N) p = rowAt t p := fun p =>
    Fin.ext (by show 512 * ((t.val - 1) / 16) + p.val = 512 * (t.val / 16) + p.val; omega)
  have hcnt : (t.val - 1) % 16 + 1 = t.val % 16 := by omega
  have e : (outsAt0 m c t.val t.isLt).2.1 = (outsAt0 m c (t.val - 1) (Nat.lt_of_le_of_lt (Nat.sub_le _ _) t.isLt)).2.1
      ∧ (outsAt0 m c t.val t.isLt).2.2
          = k0_pay3 (F := Ideal) (outsAt0 m c (t.val - 1) (Nat.lt_of_le_of_lt (Nat.sub_le _ _) t.isLt)).2.1 (iblk m c 1 t) (outsAt0 m c (t.val - 1) (Nat.lt_of_le_of_lt (Nat.sub_le _ _) t.isLt)).2.2 (iblk m c 2 t) := by
    by_cases h1 : t.val % 16 = 15
    · rw [outsAt0_C m c t h0 h1]
      dsimp only
      exact ⟨rfl, sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
    · rw [outsAt0_B m c t h0 h1]
      dsimp only
      exact ⟨rfl, sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
  have hx : ∀ (p : Fin 512) (k : Fin 2048), (outsAt0 m c (t.val - 1) (Nat.lt_of_le_of_lt (Nat.sub_le _ _) t.isLt)).2.1 (ix2 p k) = Cert.Spec.xn (Xr m c (rowAt t p)) k :=
    fun p k => (ih.1 p k).trans (by rw [hrow p])
  unfold Good
  refine ⟨fun p k => (congrFun e.1 (ix2 p k)).trans (hx p k), fun p q => (congrFun e.2 (ix2 p q)).trans ?_⟩
  refine (acc_step m c t p q (outsAt0 m c (t.val - 1) (Nat.lt_of_le_of_lt (Nat.sub_le _ _) t.isLt)).2.1 (outsAt0 m c (t.val - 1) (Nat.lt_of_le_of_lt (Nat.sub_le _ _) t.isLt)).2.2
    (Cert.Spec.part (Xr m c (rowAt t p)) (W1 m c) (W2 m c) q (t.val % 16)) (hx p) ((ih.2 p q).trans (by rw [hrow p, hcnt]))).trans ?_
  exact (Cert.Spec.part_succ _ _ _ _ _).symm

/-- The invariant holds after every point. -/
theorem good (c : Dev nD) : ∀ (n : ℕ) (h : n < cfg0.N), Good m c n h
  | 0, h => good_first m c ⟨0, h⟩ rfl
  | n + 1, h => by
    by_cases h0 : (n + 1) % 16 = 0
    · exact good_first m c ⟨n + 1, h⟩ h0
    · exact good_next m c ⟨n + 1, h⟩ h0 (good c n (Nat.lt_of_succ_lt h))

/-- A TILE'S LAST CHUNK: the output block is the input entry plus the whole block output times the row's gate. -/
theorem out_last (c : Dev nD) (t : Fin cfg0.N) (h1 : t.val % 16 = 15) (p : Fin 512) (q : Fin 2048) :
    (outsAt0 m c t.val t.isLt).1 (ix2 p q)
      = Cert.Spec.outRow (Xr m c (rowAt t p)) (W1 m c) (W2 m c) (Wr m c) q := by
  have h0 : ¬t.val % 16 = 0 := by omega
  have e0 : (outsAt0 m c t.val t.isLt).1
      = k0_pay4 (F := Ideal) (k0_pay3 (F := Ideal) (outsAt0 m c (t.val - 1) (Nat.lt_of_le_of_lt (Nat.sub_le _ _) t.isLt)).2.1 (iblk m c 1 t) (outsAt0 m c (t.val - 1) (Nat.lt_of_le_of_lt (Nat.sub_le _ _) t.isLt)).2.2 (iblk m c 2 t)) (iblk m c 3 t) (iblk m c 0 t) := by
    rw [outsAt0_C m c t h0 h1]
    dsimp only
    exact out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  have e2 : (outsAt0 m c t.val t.isLt).2.2
      = k0_pay3 (F := Ideal) (outsAt0 m c (t.val - 1) (Nat.lt_of_le_of_lt (Nat.sub_le _ _) t.isLt)).2.1 (iblk m c 1 t) (outsAt0 m c (t.val - 1) (Nat.lt_of_le_of_lt (Nat.sub_le _ _) t.isLt)).2.2 (iblk m c 2 t) := by
    rw [outsAt0_C m c t h0 h1]
    dsimp only
    exact sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  refine (congrFun e0 (ix2 p q)).trans ?_
  refine (pay4_apply (k0_pay3 (F := Ideal) (outsAt0 m c (t.val - 1) (Nat.lt_of_le_of_lt (Nat.sub_le _ _) t.isLt)).2.1 (iblk m c 1 t) (outsAt0 m c (t.val - 1) (Nat.lt_of_le_of_lt (Nat.sub_le _ _) t.isLt)).2.2 (iblk m c 2 t)) (iblk m c 3 t) (iblk m c 0 t) p q).trans ?_
  unfold Cert.Spec.outRow
  refine congrArg₂ (· + ·) (congrFun (tile_row m c t p) q) (congrArg₂ (· * ·) ?_ ?_)
  · rw [← congrFun e2 (ix2 p q), (good m c t.val t.isLt).2 p q, h1]
    exact Cert.Spec.part_sixteen _ _ _ _
  · exact (iblk3_apply m c t p (0 : Fin 1)).trans (gate_col_apply m c (rowAt t p))

end Cert.KernelIdeal.Inv

end
-- ==== Proof.KValue.lean ====
/-
  The kernel program's result as a function of its arguments.

  The fused call writes its output block back once per token tile, at the tile's last chunk; those sixteen blocks tile
  the 8192 × 2048 result, so the call's result array holds, at row `r` and channel `n`, the row formula of token row `r`.
  The program then re-lays that array as 4 × 2048 × 2048 (row `2048 b + t` is batch `b`, position `t`), which is the
  specification.
-/
import proofs.«109516_j57312043598493_2_alg».proof.Proof.Invariant
import Idealize.ShloMosaic.Lib.StableHlo.Run

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Blocks Cert.KernelIdeal.HostPre Cert.KernelIdeal.Inv

variable (m : (ℓ : Loc nD τ sig) → Buf (Elt Ideal) ℓ) (ρ : Dev nD → PrngReg)

/-- The call's result array: row `r`, channel `n` is the row formula of token row `r`. -/
def flatOut (c : Dev nD) : Buf (Elt Ideal) ((c : Thread nD τ).loc main_v8) := fun i =>
  Cert.Spec.outRow (Xr m c (i 0)) (W1 m c) (W2 m c) (Wr m c) (i 1)

/-- WHAT A WRITE-BACK WRITES: at a tile's last chunk, the tile's block of `flatOut`. -/
theorem flushed_eq (c : Dev nD) (t : Fin cfg0.N) (hf : (cfg0.win 4).flush t = true) :
    (dats m 0 c).flushed 4 t = ((cfg0.win 4).blk t).view.read (Elt Ideal) (flatOut m c) := by
  have h15 : t.val % 16 = 15 := (flush0_4 t).mp hf
  obtain ⟨-, -, -, -, -, -, -, -, e0, e1⟩ := idx_facts t
  show (cfg0.win 4).cut (grid0.coords t) ((dats m 0 c).after 4 t) = _
  rw [after0_4]
  have key : ∀ y : S512x2048.Idx, ((outsAt0 m c t.val t.isLt).1 : Vec Ideal S512x2048 .f32) y
      = flatOut m c (((cfg0.win 4).blk t).view.emb y) := by
    intro y
    obtain ⟨p, q, rfl⟩ : ∃ (p : Fin 512) (q : Fin 2048), y = ix2 p q := ⟨y 0, y 1, eq_ix2 y⟩
    have he : ((cfg0.win 4).blk t).view.emb (ix2 p q) = (ix2 (rowAt t p) q : S8192x2048.Idx) := by
      funext a; apply Fin.ext
      match a with
      | ⟨0, _⟩ => show win0_4.index t 0 * 512 + 1 * p.val = 512 * (t.val / 16) + p.val; rw [e0]; omega
      | ⟨1, _⟩ => show win0_4.index t 1 * 2048 + 1 * q.val = q.val; rw [e1]; omega
    rw [he]
    exact out_last m c t h15 p q
  exact funext key

/-- An index of the result array is in point `t`'s block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v8).slice (win0_4.rect t)).set ↔ _
  rw [View.set_slice_whole, Rect.mem_set_unit]
  exact Iff.rfl

/-- THE CALL'S RESULT ARRAY after the run: row `r` is written by the last chunk of tile `r / 512`. -/
theorem final (c : Dev nD) : (dats m 0 c).arrAt 4 cfg0.N = flatOut m c :=
  (dats m 0 c).arrAt_eq_of_cover 4 (flatOut m c) (flushed_eq m c) fun i => by
    have hi0 : (i 0).val < 8192 := (i 0).isLt
    have hi1 : (i 1).val < 2048 := (i 1).isLt
    have hN : cfg0.N = 256 := N_0
    have ht : 16 * ((i 0).val / 512) + 15 < cfg0.N := by rw [hN]; omega
    obtain ⟨-, -, -, -, -, -, -, -, e0, e1⟩ := idx_facts ⟨16 * ((i 0).val / 512) + 15, ht⟩
    refine ⟨⟨16 * ((i 0).val / 512) + 15, ht⟩, (flush0_4 _).mpr (by show (16 * ((i 0).val / 512) + 15) % 16 = 15; omega), ?_⟩
    rw [mem_blk]
    intro a
    match a with
    | ⟨0, _⟩ =>
      show win0_4.index ⟨16 * ((i 0).val / 512) + 15, ht⟩ 0 * 512 ≤ (i 0).val
        ∧ (i 0).val < win0_4.index ⟨16 * ((i 0).val / 512) + 15, ht⟩ 0 * 512 + 512
      rw [e0]
      show (16 * ((i 0).val / 512) + 15) / 16 * 512 ≤ (i 0).val ∧ (i 0).val < (16 * ((i 0).val / 512) + 15) / 16 * 512 + 512
      omega
    | ⟨1, _⟩ =>
      show win0_4.index ⟨16 * ((i 0).val / 512) + 15, ht⟩ 1 * 2048 ≤ (i 1).val
        ∧ (i 1).val < win0_4.index ⟨16 * ((i 0).val / 512) + 15, ht⟩ 1 * 2048 + 2048
      rw [e1]
      omega

/-- The specification at the program's arguments. -/
abbrev spec (c : Dev nD) : S4x2048x2048.Idx → EReal :=
  Cert.Spec.G (m ((c.tc : Thread nD τ).loc main_arg0)) (m ((c.tc : Thread nD τ).loc main_arg1)) (m ((c.tc : Thread nD τ).loc main_arg2)) (m ((c.tc : Thread nD τ).loc main_arg3))

/-- Token row `2048 b + t` is batch `b`, position `t`. -/
theorem row_of_tok (c : Dev nD) (b : Fin 4) (t : Fin 2048) (h : 2048 * b.val + t.val < 8192) :
    Xr m c ⟨2048 * b.val + t.val, h⟩ = fun k => ((m ((c.tc : Thread nD τ).loc main_arg0)) : S4x2048x2048.Idx → Elt Ideal .f32) (ix3 b t k) := by
  funext k
  unfold Xr
  have hb : tokB ⟨2048 * b.val + t.val, h⟩ = b := Fin.ext (by show (2048 * b.val + t.val) / 2048 = b.val; have := t.isLt; omega)
  have ht : tokT ⟨2048 * b.val + t.val, h⟩ = t := Fin.ext (by show (2048 * b.val + t.val) % 2048 = t.val; have := t.isLt; omega)
  rw [hb, ht]

/-- THE PROGRAM'S RESULT: the call's result array re-laid as 4 × 2048 × 2048 is the specification. -/
theorem tail_eq (c : Dev nD) :
    (Pipeline.afterTail₀ cfgs (dats m) 0 (V0 m) [hostOps1] c main_v9 : S4x2048x2048.Idx → Elt Ideal .f32) = spec m c := by
  unfold Pipeline.afterTail₀
  show StableHlo.after hostOps1 _ (Proc.devRef .tc main_v9) = _
  after_results
  have hw := (Pipeline.withArrays_arr spec0 launch0.win.arr_inj c (V0 m c) (fun w => (dats m 0 c).arrAt w cfg0.N) 4).trans (final m c)
  refine (congrArg (fun v => (shapeCast S4x2048x2048 v shapeCasts_S8192x2048_S4x2048x2048 : S4x2048x2048.Idx → Elt Ideal .f32)) hw).trans ?_
  funext i
  obtain ⟨b, t, n, rfl⟩ : ∃ (b : Fin 4) (t : Fin 2048) (n : Fin 2048), i = ix3 b t n := ⟨i 0, i 1, i 2, eq_ix3 i⟩
  have h : 2048 * b.val + t.val < 8192 := by have := b.isLt; have := t.isLt; omega
  refine (shapeCast_apply (flatOut m c) shapeCasts_S8192x2048_S4x2048x2048 (ix3 b t n) (ix2 ⟨2048 * b.val + t.val, h⟩ n)
    (by show (S8192x2048.rowMajor (ix2 ⟨2048 * b.val + t.val, h⟩ n)).val = (S4x2048x2048.rowMajor (ix3 b t n)).val
        rewrite [Shape.rowMajor_val_three, Shape.rowMajor_val_two]
        show (2048 * b.val + t.val) * 2048 + n.val = (b.val * 2048 + t.val) * 2048 + n.val
        omega)).trans ?_
  show Cert.Spec.outRow (Xr m c ⟨2048 * b.val + t.val, h⟩) (W1 m c) (W2 m c) (Wr m c) n = _
  rw [row_of_tok m c b t h]
  rfl

/-- THE RUN, READ: every weakly fair execution ends with the result at the specification and the arguments unchanged. -/
theorem run : θ_run defs (onTc (τ := τ) (main (F := Ideal))) ⟨m, fun _ => 0, ρ⟩ fun r => ∀ c : Dev nD,
      r.2.mem ((c.tc : Thread nD τ).loc main_v9) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
/-
  The plain reference computes the specification.

  The reference is a chain of array operations. Read at one entry (b, t, n) of the result, every operation of the
  chain depends on token row (b, t) of the input only, and the chain has two independent halves.

  * The feed-forward half is, operation for operation, the specification's row formula: the row's sum of squares
    (the sum starts from the zero literal, which is the real zero), divided by 2048, plus the offset, reciprocal
    root; the scaled row against row f of the first weight matrix; the maximum with zero, squared; the activations
    against row n of the second weight matrix.

  * The gate half computes, from the row's router logit l: p = 1 / (1 + exp (-l)); h = 1 if p > 1/2 else 0;
    the mask (h + p) - p; and returns the block output times the mask where the mask exceeds 1/2, and the zero
    literal elsewhere. When l is a real number, exp (-l) is a positive real, so p is a real strictly between 0 and 1,
    and p > 1/2 exactly when 1 + exp (-l) < 2, that is when l > 0. Since h and p are reals, (h + p) - p = h
    exactly. So the mask is 1 when l > 0 and 0 otherwise: the specification's gate. The mask exceeds 1/2 exactly
    when it is 1; then the selected value is the block output times 1, and otherwise it is the zero literal, which
    is the block output times 0 (on the extended reals x * 0 = 0 for every x, the infinities included).
-/
import proofs.«109516_j57312043598493_2_alg».proof.Proof.Gen.ReferenceIdeal.Read
import proofs.«109516_j57312043598493_2_alg».proof.Proof.Spec

open scoped BigOperators

noncomputable section

namespace Cert.ReferenceIdeal.RefValue

open Cert.ReferenceIdeal Cert.ReferenceIdeal.Gen Cert.ReferenceIdeal.Read
open Idealize.ShloMosaic Idealize.ShloMosaic.ValueIdx

/-! ## The literals of the gate -/

/-- The pattern `0x3F800000` denotes the real one. -/
theorem ofBits_one : Ideal.ofBits .f32 0x3F800000#32 = ((1 : ℝ) : EReal) := by
  simp [Ideal.ofBits, Ideal.ieee, -EReal.coe_mul]; norm_num

/-- The pattern `0x3F000000` denotes the real one half. -/
theorem ofBits_half : Ideal.ofBits .f32 0x3F000000#32 = (((1 : ℝ) / 2 : ℝ) : EReal) := by
  simp [Ideal.ofBits, Ideal.ieee, -EReal.coe_mul]; norm_num

/-! ## The gate as a function of the logit -/

/-- The logistic function as the reference spells it: one over one plus the exponential of the negated logit. -/
def sigm (l : EReal) : EReal :=
  FloatOps.hostDivf (F := Ideal) (φ := .f32) (FloatOps.ofBits .f32 0x3F800000#32)
    (FloatOps.addf (FloatOps.ofBits .f32 0x3F800000#32) (FloatOps.hostUnary .exp (FloatOps.hostNegf l)))

/-- The mask as the reference spells it: the indicator of `p > 1/2`, plus `p`, minus `p`, for `p` the logistic of the logit. -/
def maskOf (l : EReal) : EReal :=
  FloatOps.subf (F := Ideal) (φ := .f32)
    (FloatOps.addf (FloatOps.uitofp .f32 (FloatOps.cmpf (F := Ideal) (φ := .f32) .ogt (sigm l) (FloatOps.ofBits .f32 0x3F000000#32))) (sigm l))
    (sigm l)

/-- The gated value as the reference spells it: `m` times the mask where the mask exceeds one half, the zero literal elsewhere. -/
def gated (l m : EReal) : EReal :=
  Scalar.select (FloatOps.cmpf (F := Ideal) (φ := .f32) .ogt (maskOf l) (FloatOps.ofBits .f32 0x3F000000#32))
    (FloatOps.mulf (F := Ideal) (φ := .f32) m (maskOf l)) (FloatOps.ofBits (F := Ideal) .f32 0x00000000#32)

/-- At a real logit the logistic is the real `(1 + exp (-l))⁻¹`: the divisor `1 + exp (-l)` is a positive real. -/
theorem sigm_real (l : ℝ) : sigm (l : EReal) = (((1 + Real.exp (-l))⁻¹ : ℝ) : EReal) := by
  unfold sigm
  simp only [Ideal.hostDivf_def, Ideal.hostUnary_exp_def, Ideal.hostNegf_def, Ideal.negf_def, Ideal.addf_def, Ideal.ofBits_def, ofBits_one]
  rw [← EReal.coe_neg, Ideal.exp_coe, ← EReal.coe_add, Ideal.div_coe (by positivity), ← EReal.coe_mul]
  congr 1
  ring

/-- The logistic of `l` exceeds one half exactly when `l` is positive: `1/2 < (1 + e)⁻¹` iff `1 + e < 2` iff
    `exp (-l) < 1` iff `-l < 0`. -/
theorem half_lt_iff (l : ℝ) : (1 : ℝ) / 2 < (1 + Real.exp (-l))⁻¹ ↔ 0 < l := by
  have he : 0 < Real.exp (-l) := Real.exp_pos _
  rw [lt_inv_comm₀ (by norm_num) (by positivity), show ((1 : ℝ) / 2)⁻¹ = 2 by norm_num,
    show (1 + Real.exp (-l) < 2) ↔ Real.exp (-l) < 1 from ⟨fun h => by linarith, fun h => by linarith⟩,
    Real.exp_lt_one_iff, neg_lt_zero]

/-- At a real logit the mask is the specification's gate: the indicator `h` and the logistic `p` are reals, so
    `(h + p) - p = h`, and `h` is one exactly when the logit is positive. -/
theorem maskOf_real (l : ℝ) : maskOf (l : EReal) = Cert.Spec.gate (l : EReal) := by
  unfold maskOf Cert.Spec.gate
  rw [sigm_real]
  simp only [Ideal.cmpf_def, Ideal.addf_def, Ideal.subf_def, Ideal.ofBits_def, ofBits_half, Ideal.cmp]
  show ((((BitVec.ofBool (decide ((((1 : ℝ) / 2 : ℝ) : EReal) < (((1 + Real.exp (-l))⁻¹ : ℝ) : EReal)))).toNat : ℝ) : EReal)
      + (((1 + Real.exp (-l))⁻¹ : ℝ) : EReal)) - (((1 + Real.exp (-l))⁻¹ : ℝ) : EReal) = _
  rw [← EReal.coe_add, ← EReal.coe_sub, add_sub_cancel_right]
  simp only [EReal.coe_lt_coe_iff, half_lt_iff, EReal.coe_pos]
  by_cases h : 0 < l
  · simp [h]
  · simp [h]

/-- At a real logit the gated value is `m` times the gate, for every extended real `m`: a gate of one exceeds one half
    and selects `m * 1`; a gate of zero does not, and the zero literal is `m * 0`. -/
theorem gated_real (l : ℝ) (m : EReal) : gated (l : EReal) m = m * Cert.Spec.gate (l : EReal) := by
  unfold gated
  rw [maskOf_real]
  simp only [Ideal.cmpf_def, Ideal.mulf_def, Ideal.ofBits_def, ofBits_half, Ideal.cmp, Ideal.ofBits_zero_f32]
  unfold Cert.Spec.gate
  by_cases h : (0 : EReal) < (l : EReal)
  · rw [if_pos h]
    have h1 : decide ((((1 : ℝ) / 2 : ℝ) : EReal) < 1) = true :=
      decide_eq_true (by rw [← EReal.coe_one, EReal.coe_lt_coe_iff]; norm_num)
    rw [h1]
    exact select_one _ _
  · rw [if_neg h]
    have h0 : decide ((((1 : ℝ) / 2 : ℝ) : EReal) < 0) = false :=
      decide_eq_false (by rw [← EReal.coe_zero, EReal.coe_lt_coe_iff]; norm_num)
    rw [h0, mul_zero]
    exact select_zero _ _

section Stages

variable (x0 : (⟨S4x2048x2048, .f32⟩ : BufTy).Contents (Elt Ideal)) (x1 : (⟨S8192x2048, .f32⟩ : BufTy).Contents (Elt Ideal))
  (x2 : (⟨S2048x8192, .f32⟩ : BufTy).Contents (Elt Ideal)) (x3 : (⟨S1x2048, .f32⟩ : BufTy).Contents (Elt Ideal))

/-! ## The router logit

Entry (b, t) of the reshaped product of the input with the 1 × 2048 router vector is entry (b, t, 0) of the
product: the row-major position `b * 2048 + t` splits back into `b` and `t`. It is the inner product of row (b, t) with
the router vector. -/

theorem lidx0_eq (b : Fin 4) (t : Fin 2048) (k : Fin 2048) : lidx_main_v0 (idx_main_v1 (ix2 b t)) k = ix3 b t k :=
  funext fun a => Fin.ext (by
    match a with
    | ⟨0, _⟩ => show (b.val * 2048 + t.val) / 2048 = b.val; omega
    | ⟨1, _⟩ => show (b.val * 2048 + t.val) / 1 % 2048 = t.val; omega
    | ⟨2, _⟩ => rfl)

theorem ridx0_eq (b : Fin 4) (t : Fin 2048) (k : Fin 2048) : ridx_main_v0 (idx_main_v1 (ix2 b t)) k = ix2 (0 : Fin 1) k :=
  funext fun a => Fin.ext (by match a with | ⟨0, _⟩ => rfl | ⟨1, _⟩ => rfl)

theorem v1_at (b : Fin 4) (t : Fin 2048) :
    val_main_v1 (F := Ideal) x0 x3 (ix2 b t) = Cert.Spec.logit (fun c => x0 (ix3 b t c)) (fun c => x3 (ix2 (0 : Fin 1) c)) := by
  rw [val_main_v1_apply, val_main_v0_apply]
  unfold Cert.Spec.logit
  refine Finset.sum_congr rfl fun c _ => ?_
  rw [lidx0_eq, ridx0_eq]

/-! ## The gate stages

The logistic, the mask and the mask's comparison with one half are entrywise functions of the logit array. -/

theorem v7_at (i : S4x2048.Idx) : val_main_v7 (F := Ideal) x0 x3 i = sigm (val_main_v1 (F := Ideal) x0 x3 i) := by
  rw [val_main_v7_apply, val_main_v6_apply, val_main_cst_0_apply, val_main_v5_apply, val_main_v4_apply, val_main_cst_apply,
    val_main_v3_apply, val_main_v2_apply]
  rfl

theorem v12_at (i : S4x2048.Idx) : val_main_v12 (F := Ideal) x0 x3 i = maskOf (val_main_v1 (F := Ideal) x0 x3 i) := by
  rw [val_main_v12_apply, val_main_v11_apply, val_main_v10_apply, val_main_v9_apply, val_main_v8_apply, val_main_cst_1_apply, v7_at]
  rfl

theorem v14_at (i : S4x2048.Idx) :
    val_main_v14 (F := Ideal) x0 x3 i
      = FloatOps.cmpf (F := Ideal) (φ := .f32) .ogt (maskOf (val_main_v1 (F := Ideal) x0 x3 i)) (FloatOps.ofBits .f32 0x3F000000#32) := by
  rw [val_main_v14_apply, val_main_v13_apply, val_main_cst_2_apply, v12_at]

/-! ## The feed-forward stages

Each stage at an entry of row (b, t) reads its operands in row (b, t): a reduction or a contraction over the last axis
runs over the row, a broadcast of a per-row value reads that row's value. -/

theorem idx16_eq (b : Fin 4) (t : Fin 2048) (k : Fin 2048) : idx_main_v16 (ix2 b t) k = ix3 b t k :=
  funext fun a => Fin.ext (by match a with | ⟨0, _⟩ => rfl | ⟨1, _⟩ => rfl | ⟨2, _⟩ => rfl)

theorem idx17_eq (b : Fin 4) (t : Fin 2048) : idx_main_v17 (ix3 b t (0 : Fin 1)) = ix2 b t :=
  funext fun a => Fin.ext (by match a with | ⟨0, _⟩ => rfl | ⟨1, _⟩ => rfl)

theorem idx23_eq (b : Fin 4) (t : Fin 2048) (c : Fin 2048) : idx_main_v23 (ix3 b t c) = ix3 b t (0 : Fin 1) :=
  funext fun a => Fin.ext (by match a with | ⟨0, _⟩ => rfl | ⟨1, _⟩ => rfl | ⟨2, _⟩ => rfl)

theorem lidx25_eq (b : Fin 4) (t : Fin 2048) (f : Fin 8192) (k : Fin 2048) : lidx_main_v25 (ix3 b t f) k = ix3 b t k :=
  funext fun a => Fin.ext (by match a with | ⟨0, _⟩ => rfl | ⟨1, _⟩ => rfl | ⟨2, _⟩ => rfl)

theorem ridx25_eq (b : Fin 4) (t : Fin 2048) (f : Fin 8192) (k : Fin 2048) : ridx_main_v25 (ix3 b t f) k = ix2 f k :=
  funext fun a => Fin.ext (by match a with | ⟨0, _⟩ => rfl | ⟨1, _⟩ => rfl)

theorem lidx28_eq (b : Fin 4) (t : Fin 2048) (n : Fin 2048) (k : Fin 8192) : lidx_main_v28 (ix3 b t n) k = ix3 b t k :=
  funext fun a => Fin.ext (by match a with | ⟨0, _⟩ => rfl | ⟨1, _⟩ => rfl | ⟨2, _⟩ => rfl)

theorem ridx28_eq (b : Fin 4) (t : Fin 2048) (n : Fin 2048) (k : Fin 8192) : ridx_main_v28 (ix3 b t n) k = ix2 n k :=
  funext fun a => Fin.ext (by match a with | ⟨0, _⟩ => rfl | ⟨1, _⟩ => rfl)

theorem v16_at (b : Fin 4) (t : Fin 2048) :
    val_main_v16 (F := Ideal) x0 (ix2 b t) = ∑ c : Fin 2048, x0 (ix3 b t c) * x0 (ix3 b t c) := by
  rw [val_main_v16_apply, val_main_cst_3_apply, Ideal.ofBits_def, Ideal.ofBits_zero_f32, zero_add]
  refine Finset.sum_congr rfl fun c _ => ?_
  rw [val_main_v15_apply, idx16_eq]
  rfl

theorem v22_at (b : Fin 4) (t : Fin 2048) :
    val_main_v22 (F := Ideal) x0 (ix3 b t (0 : Fin 1)) = Cert.Spec.rinv (fun c => x0 (ix3 b t c)) := by
  rw [val_main_v22_apply, val_main_v21_apply, val_main_v19_apply, val_main_v20_apply, val_main_cst_5_apply, val_main_v18_apply,
    val_main_cst_4_apply, val_main_v17_apply, idx17_eq, v16_at]
  rfl

theorem v24_at (b : Fin 4) (t : Fin 2048) (c : Fin 2048) :
    val_main_v24 (F := Ideal) x0 (ix3 b t c) = Cert.Spec.xn (fun c => x0 (ix3 b t c)) c := by
  rw [val_main_v24_apply, val_main_v23_apply, idx23_eq, v22_at]
  rfl

theorem v25_at (b : Fin 4) (t : Fin 2048) (f : Fin 8192) :
    val_main_v25 (F := Ideal) x0 x1 (ix3 b t f) = Cert.Spec.hid (fun c => x0 (ix3 b t c)) (fun f c => x1 (ix2 f c)) f := by
  rw [val_main_v25_apply]
  unfold Cert.Spec.hid
  refine Finset.sum_congr rfl fun c _ => ?_
  rw [lidx25_eq, ridx25_eq, v24_at]

theorem v27_at (b : Fin 4) (t : Fin 2048) (f : Fin 8192) :
    val_main_v27 (F := Ideal) x0 x1 (ix3 b t f) = Cert.Spec.act (fun c => x0 (ix3 b t c)) (fun f c => x1 (ix2 f c)) f := by
  rw [val_main_v27_apply, val_main_v26_apply, val_main_call0_v0_apply, val_main_call0_cst_apply, v25_at]
  rfl

theorem v28_at (b : Fin 4) (t : Fin 2048) (n : Fin 2048) :
    val_main_v28 (F := Ideal) x0 x1 x2 (ix3 b t n)
      = Cert.Spec.mlp (fun c => x0 (ix3 b t c)) (fun f c => x1 (ix2 f c)) (fun n f => x2 (ix2 n f)) n := by
  rw [val_main_v28_apply]
  unfold Cert.Spec.mlp
  refine Finset.sum_congr rfl fun f _ => ?_
  rw [lidx28_eq, ridx28_eq, v27_at]

/-! ## The gated block output and the result

The per-row mask and its comparison are broadcast along the last axis, so entry (b, t, n) of the gated output is the
gated value of row (b, t)'s logit and the block's output at (b, t, n). -/

theorem idx31_eq (b : Fin 4) (t : Fin 2048) (n : Fin 2048) : idx_main_v31 (ix3 b t n) = ix3 b t (0 : Fin 1) :=
  funext fun a => Fin.ext (by match a with | ⟨0, _⟩ => rfl | ⟨1, _⟩ => rfl | ⟨2, _⟩ => rfl)

theorem idx30_eq (b : Fin 4) (t : Fin 2048) : idx_main_v30 (ix3 b t (0 : Fin 1)) = ix2 b t :=
  funext fun a => Fin.ext (by match a with | ⟨0, _⟩ => rfl | ⟨1, _⟩ => rfl)

theorem idx29_eq (b : Fin 4) (t : Fin 2048) : idx_main_v29 (ix3 b t (0 : Fin 1)) = ix2 b t :=
  funext fun a => Fin.ext (by match a with | ⟨0, _⟩ => rfl | ⟨1, _⟩ => rfl)

theorem idxc1v1_eq (b : Fin 4) (t : Fin 2048) (n : Fin 2048) : idx_main_call1_v1 (ix3 b t n) = ix3 b t (0 : Fin 1) :=
  funext fun a => Fin.ext (by match a with | ⟨0, _⟩ => rfl | ⟨1, _⟩ => rfl | ⟨2, _⟩ => rfl)

theorem v33_at (b : Fin 4) (t : Fin 2048) (n : Fin 2048) :
    val_main_v33 (F := Ideal) x0 x1 x2 x3 (ix3 b t n)
      = gated (val_main_v1 (F := Ideal) x0 x3 (ix2 b t)) (val_main_v28 (F := Ideal) x0 x1 x2 (ix3 b t n)) := by
  rw [val_main_v33_apply, val_main_call1_v1_apply, idxc1v1_eq, val_main_v29_apply, idx29_eq, v14_at, val_main_v32_apply,
    val_main_v31_apply, idx31_eq, val_main_v30_apply, idx30_eq, v12_at, val_main_call1_v2_apply, val_main_call1_v0_apply,
    val_main_cst_6_apply]
  rfl

end Stages

/-- The reference's result is the specification, wherever every row's router logit is a real number. -/
theorem result_eq (x0 : (⟨S4x2048x2048, .f32⟩ : BufTy).Contents (Elt Ideal)) (x1 : (⟨S8192x2048, .f32⟩ : BufTy).Contents (Elt Ideal))
    (x2 : (⟨S2048x8192, .f32⟩ : BufTy).Contents (Elt Ideal)) (x3 : (⟨S1x2048, .f32⟩ : BufTy).Contents (Elt Ideal))
    (hl : ∀ (b : Fin 4) (t : Fin 2048), ∃ r : ℝ,
      Cert.Spec.logit (fun c => x0 (ix3 b t c)) (fun c => x3 (ix2 (0 : Fin 1) c)) = (r : EReal)) :
    val_main_v34 (F := Ideal) x0 x1 x2 x3 = Cert.Spec.G x0 x1 x2 x3 := by
  funext i
  obtain ⟨b, t, n, rfl⟩ : ∃ (b : Fin 4) (t : Fin 2048) (n : Fin 2048), i = ix3 b t n := ⟨i 0, i 1, i 2, eq_ix3 i⟩
  obtain ⟨r, hr⟩ := hl b t
  rw [val_main_v34_apply, v33_at, v1_at, v28_at, hr, gated_real, ← hr]
  rfl

end Cert.ReferenceIdeal.RefValue

end
-- ==== Proof.Finite.lean ====
/-
  Finiteness of the inputs. The precondition says that every entry of each of the four arguments has absolute value
  strictly below `+∞`; in the extended reals this excludes both infinities, so the entry is a real number. A row of
  reals against a vector of reals then has a real inner product.
-/
import proofs.«109516_j57312043598493_2_alg».proof.Pre_finite_inputs
import proofs.«109516_j57312043598493_2_alg».proof.Proof.Gen.Pre_finite_inputs
import proofs.«109516_j57312043598493_2_alg».proof.Proof.Spec
import Idealize.ShloMosaic.Lib.ReduceAll
import Idealize.ShloMosaic.Lib.ValueIdx
import Idealize.ShloMosaic.PureOps.Ideal

open scoped BigOperators

noncomputable section

namespace Cert.Finite

open Idealize.ShloMosaic Idealize.ShloMosaic.ValueIdx

/-- The rank-zero shape has exactly one index. -/
instance : Subsingleton Cert.Pre_finite_inputs.S_.Idx := ⟨fun a b => funext fun d => d.elim0⟩

/-- The single-precision pattern with all exponent bits set and no significand bit denotes `+∞`. -/
theorem ofBits_inf : Ideal.ofBits .f32 0x7F800000#32 = (⊤ : EReal) := by
  simp [Ideal.ofBits, Ideal.ieee]

/-- An extended real whose absolute value lies strictly below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- Under the precondition — for each of the four arguments every entry's absolute value is strictly below `+∞`,
    the four conjunctions over all entries and-ed into one bit that is set — every entry of the first and of the
    fourth argument is a real number: the one bit splits into its four conjuncts, a conjunction over all entries
    that is set is set at each entry, and an entry of absolute value below `+∞` is neither infinity. -/
theorem real_of_pre (a0 : FVec Ideal Cert.Pre_finite_inputs.S4x2048x2048 .f32) (a1 : FVec Ideal Cert.Pre_finite_inputs.S8192x2048 .f32) (a2 : FVec Ideal Cert.Pre_finite_inputs.S2048x8192 .f32) (a3 : FVec Ideal Cert.Pre_finite_inputs.S1x2048 .f32)
    (h : Cert.Pre_finite_inputs.fn (F := Ideal) a0 a1 a2 a3 = fun _ => 1#1) :
    (∀ i, ∃ r : ℝ, a0 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, _⟩ := IntOp.andi_eq_one.1 h012
  obtain ⟨h0', _⟩ := IntOp.andi_eq_one.1 h01
  exact ⟨fun i => real_of_abs_lt (a0 i) (Host.reduce_andi_all _ _ _ _ _ h0' i),
    fun i => real_of_abs_lt (a3 i) (Host.reduce_andi_all _ _ _ _ _ h3 i)⟩

/-- The router logit of a row of reals against a vector of reals is real: a finite sum of products of real
    numbers, read in the extended reals, is the real sum. -/
theorem logit_real (xr wr : Fin 2048 → EReal) (hx : ∀ c, ∃ r : ℝ, xr c = (r : EReal)) (hw : ∀ c, ∃ r : ℝ, wr c = (r : EReal)) :
    ∃ r : ℝ, Cert.Spec.logit xr wr = (r : EReal) := by
  choose f hf using hx
  choose g hg using hw
  refine ⟨∑ c : Fin 2048, f c * g c, ?_⟩
  unfold Cert.Spec.logit
  simp only [hf, hg]
  induction (Finset.univ : Finset (Fin 2048)) using Finset.induction_on with
  | empty => simp
  | insert a s ha ih => rw [Finset.sum_insert ha, Finset.sum_insert ha, ih, EReal.coe_add, EReal.coe_mul]

end Cert.Finite

end
-- ==== Proof.lean ====
/-
  The certificate of a fused, gated feed-forward kernel against its plain reference, over the extended reals.

  Both programs compute, for every token row of the input, the row plus the gated output of a two-layer block: the row is
  scaled by the reciprocal root of its mean square, multiplied by the first weight matrix, passed through the square of
  the positive part, multiplied by the second weight matrix, and the result is kept or dropped by the row's gate — one
  when the row's router logit is positive, zero otherwise (Proof/Spec.lean).
    * The kernel tiles the tokens into blocks of 512 rows and the hidden units into 16 chunks of 512; it keeps the scaled
      rows and a running total of the block output across a tile's chunks, and at the last chunk adds the gated total to
      the input (Proof/Pieces.lean, Payload.lean, Blocks.lean, HostPre.lean, Invariant.lean, KValue.lean). Over the
      extended reals the running total after sixteen chunks is the whole sum over the hidden units, in any grouping.
    * The reference computes the gate through a logistic function and a straight-through mask. For a real logit the
      logistic value exceeds one half exactly when the logit is positive, and adding and subtracting the logistic value
      changes nothing, so the mask is the gate (Proof/RefValue.lean). The logit is real because the inputs are finite
      (Proof/Finite.lean): this is the one place the precondition is used.
  The idealization rewrote nothing, so the kernel's idealization is the kernel's own text read over the extended reals.
-/
import proofs.«109516_j57312043598493_2_alg».proof.Defs
import proofs.«109516_j57312043598493_2_alg».proof.Proof.Gen.Kernel
import proofs.«109516_j57312043598493_2_alg».proof.Proof.Gen.Kernel.Skeleton
import proofs.«109516_j57312043598493_2_alg».proof.Proof.Gen.Kernel.Launch
import proofs.«109516_j57312043598493_2_alg».proof.Proof.Gen.Kernel.Points
import proofs.«109516_j57312043598493_2_alg».proof.Proof.Gen.Kernel.Frame
import proofs.«109516_j57312043598493_2_alg».proof.Proof.Gen.KernelIdeal
import proofs.«109516_j57312043598493_2_alg».proof.Proof.Gen.KernelIdeal.Skeleton
import proofs.«109516_j57312043598493_2_alg».proof.Proof.Gen.KernelIdeal.Launch
import proofs.«109516_j57312043598493_2_alg».proof.Proof.Gen.KernelIdeal.Points
import proofs.«109516_j57312043598493_2_alg».proof.Proof.Gen.KernelIdeal.Frame
import proofs.«109516_j57312043598493_2_alg».proof.Proof.Gen.ReferenceIdeal
import proofs.«109516_j57312043598493_2_alg».proof.Proof.Gen.Pre_finite_inputs
import proofs.«109516_j57312043598493_2_alg».proof.Proof.Gen.ReferenceIdeal.Run
import proofs.«109516_j57312043598493_2_alg».proof.Proof.Gen.ReferenceIdeal.Read
import proofs.«109516_j57312043598493_2_alg».proof.Proof.Spec
import proofs.«109516_j57312043598493_2_alg».proof.Proof.KValue
import proofs.«109516_j57312043598493_2_alg».proof.Proof.RefValue
import proofs.«109516_j57312043598493_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification of arguments that agree; the reference's side needs each token row's router
    logit to be real, which the finiteness of the input and of the router vector gives. -/
theorem algebraic : Cert.algebraic_KernelIdeal_ReferenceIdeal := by
  intro m ρ m' ρ' hpre hagree
  refine ⟨fun c => Cert.KernelIdeal.KValue.spec m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2]
  obtain ⟨hx, hw⟩ := Cert.Finite.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hpre c)
  exact Cert.ReferenceIdeal.RefValue.result_eq _ _ _ _ fun b t =>
    Cert.Finite.logit_real _ _ (fun k => hx (ix3 b t k)) (fun k => hw (ix2 (0 : Fin 1) k))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
